-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x512 : Shape := ⟨3, ![256, 64, 512]⟩
abbrev S512x512 : Shape := ⟨2, ![512, 512]⟩
abbrev S1x512 : Shape := ⟨2, ![1, 512]⟩
abbrev S256x512x512 : Shape := ⟨3, ![256, 512, 512]⟩
abbrev S256x1x512 : Shape := ⟨3, ![256, 1, 512]⟩
abbrev S_ : Shape := ⟨0, ![]⟩

class Facts : Prop where
  bcast_S_S256x64x512 : S_.BroadcastsInDim S256x64x512 (![] : Fin 0 → Fin S256x64x512.rank)
  reducesTo_S256x64x512_S_d0_1_2 : S256x64x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S256x512x512 : S_.BroadcastsInDim S256x512x512 (![] : Fin 0 → Fin S256x512x512.rank)
  reducesTo_S256x512x512_S_d0_1_2 : S256x512x512.ReducesTo [0, 1, 2] S_
  bcast_S_S256x1x512 : S_.BroadcastsInDim S256x1x512 (![] : Fin 0 → Fin S256x1x512.rank)
  reducesTo_S256x1x512_S_d0_1_2 : S256x1x512.ReducesTo [0, 1, 2] S_

variable [Facts]

def fn_part1 {F : FTy → Type} [FloatOps F] (main_arg4 : FVec F S1x512 .f32) (main_arg5 : FVec F S256x512x512 .f32) (main_arg6 : FVec F S256x1x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S256x512x512 .f32 := Host.absf main_arg5
  let main_cst_8 : FVec F S_ .f32 := constant S_ .f32 0x7F800000#32
  let main_v25 : FVec F S256x512x512 .f32 := broadcastInDim S256x512x512 ![] bcast_S_S256x512x512 main_cst_8
  let main_v26 : IVec S256x512x512 1 := cmpf .olt main_v24 main_v25
  let main_c_9 : IVec S_ 1 := constantI S_ 1 1#1
  let main_v27 : IVec S_ 1 := (fun x v => Host.reduce IntOp.andi x v reducesTo_S256x512x512_S_d0_1_2 h_S_) main_v26 main_c_9
  let main_v28 : IVec S_ 1 := andi main_v23 main_v27
  let main_v29 : FVec F S256x1x512 .f32 := Host.absf main_arg6
  let main_cst_10 : FVec F S_ .f32 := constant S_ .f32 0x7F800000#32
  let main_v30 : FVec F S256x1x512 .f32 := broadcastInDim S256x1x512 ![] bcast_S_S256x1x512 main_cst_10
  let main_v31 : IVec S256x1x512 1 := cmpf .olt main_v29 main_v30
  let main_c_11 : IVec S_ 1 := constantI S_ 1 1#1
  let main_v32 : IVec S_ 1 := (fun x v => Host.reduce IntOp.andi x v reducesTo_S256x1x512_S_d0_1_2 h_S_) main_v31 main_c_11
  let main_v33 : IVec S_ 1 := andi main_v28 main_v32
  main_v33

def fn {F : FTy → Type} [FloatOps F] (main_arg0 : FVec F S256x64x512 .f32) (main_arg1 : FVec F S512x512 .f32) (main_arg2 : FVec F S1x512 .f32) (main_arg3 : FVec F S512x512 .f32) (main_arg4 : FVec F S1x512 .f32) (main_arg5 : FVec F S256x512x512 .f32) (main_arg6 : FVec F S256x1x512 .f32) : IVec S_ 1 :=
  let main_v0 : FVec F S256x64x512 .f32 := Host.absf main_arg0
  let main_cst : FVec F S_ .f32 := constant S_ .f32 0x7F800000#32
  let main_v1 : FVec F S256x64x512 .f32 := broadcastInDim S256x64x512 ![] bcast_S_S256x64x512 main_cst
  let main_v2 : IVec S256x64x512 1 := cmpf .olt main_v0 main_v1
  let main_c : IVec S_ 1 := constantI S_ 1 1#1
  let main_v3 : IVec S_ 1 := (fun x v => Host.reduce IntOp.andi x v reducesTo_S256x64x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S256x64x512 : Shape := ⟨3, ![256, 64, 512]⟩
abbrev S512x512 : Shape := ⟨2, ![512, 512]⟩
abbrev S1x512 : Shape := ⟨2, ![1, 512]⟩
abbrev S256x512x512 : Shape := ⟨3, ![256, 512, 512]⟩
abbrev S256x1x512 : Shape := ⟨3, ![256, 1, 512]⟩
abbrev S4x64x512 : Shape := ⟨3, ![4, 64, 512]⟩
abbrev S4x512x512 : Shape := ⟨3, ![4, 512, 512]⟩
abbrev S4x1x512 : Shape := ⟨3, ![4, 1, 512]⟩
abbrev S1x512x512 : Shape := ⟨3, ![1, 512, 512]⟩
abbrev S1x1x512 : Shape := ⟨3, ![1, 1, 512]⟩

abbrev nBuf : Space → Nat
  | .hbm => 8
  | .vmem => 12
  | .smem => 0
  | _ => 0

abbrev bufTy : (tb : Table) → Fin (tcTables nBuf tb) → BufTy
  | .hbm, ⟨0, _⟩ => ⟨S256x64x512, .f32⟩
  | .hbm, ⟨1, _⟩ => ⟨S512x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S256x512x512, .f32⟩
  | .hbm, ⟨6, _⟩ => ⟨S256x1x512, .f32⟩
  | .hbm, ⟨7, _⟩ => ⟨S256x64x512, .f32⟩
  | .local _ .vmem, ⟨0, _⟩ => ⟨S4x64x512, .f32⟩
  | .local _ .vmem, ⟨1, _⟩ => ⟨S4x64x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S4x512x512, .f32⟩
  | .local _ .vmem, ⟨7, _⟩ => ⟨S4x512x512, .f32⟩
  | .local _ .vmem, ⟨8, _⟩ => ⟨S4x1x512, .f32⟩
  | .local _ .vmem, ⟨9, _⟩ => ⟨S4x1x512, .f32⟩
  | .local _ .vmem, ⟨10, _⟩ => ⟨S4x64x512, .f32⟩
  | .local _ .vmem, ⟨11, _⟩ => ⟨S4x64x512, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S4x512x512_S4x512x512_0_0_0 : ∀ a, (![0, 0, 0] : Fin 3 → Nat) a + S4x512x512.size a ≤ S4x512x512.size a
  h_S4x512x512 : 0 < S4x512x512.numel
  inb_S512x512_S512x512_0_0 : ∀ a, (![0, 0] : Fin 2 → Nat) a + S512x512.size a ≤ S512x512.size a
  h_S512x512 : 0 < S512x512.numel
  shapeCasts_S512x512_S1x512x512 : S512x512.ShapeCasts S1x512x512
  broadcasts_S1x512x512_S4x512x512 : S1x512x512.Broadcasts S4x512x512
  inb_S4x64x512_S4x64x512_0_0_0 : ∀ a, (![0, 0, 0] : Fin 3 → Nat) a + S4x64x512.size a ≤ S4x64x512.size a
  h_S4x64x512 : 0 < S4x64x512.numel
  bitsLt_bf16_f32 : FTy.bits .bf16 < FTy.bits .f32
  inb_S4x1x512_S4x1x512_0_0_0 : ∀ a, (![0, 0, 0] : Fin 3 → Nat) a + S4x1x512.size a ≤ S4x1x512.size a
  h_S4x1x512 : 0 < S4x1x512.numel
  inb_S1x512_S1x512_0_0 : ∀ a, (![0, 0] : Fin 2 → Nat) a + S1x512.size a ≤ S1x512.size a
  h_S1x512 : 0 < S1x512.numel
  shapeCasts_S1x512_S1x1x512 : S1x512.ShapeCasts S1x1x512
  broadcasts_S1x1x512_S4x1x512 : S1x1x512.Broadcasts S4x1x512
  broadcasts_S4x1x512_S4x64x512 : S4x1x512.Broadcasts S4x64x512
  dot_S4x64x512_S4x512x512_S4x64x512_2_1_1_2_0_0_wf : DotDims.WF S4x64x512 S4x512x512 S4x64x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x512.size a ≤ S256x64x512.size a
  hwx0_0 : ∀ i : grid0.Coords, EltTy.bits .f32 = 32 ∨ (Rect.block (s := S256x64x512) S4x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x512.size a ≤ S256x512x512.size a
  hwx0_5 : ∀ i : grid0.Coords, EltTy.bits .f32 = 32 ∨ (Rect.block (s := S256x512x512) S4x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x512.size a ≤ S256x1x512.size a
  hwx0_6 : ∀ i : grid0.Coords, EltTy.bits .f32 = 32 ∨ (Rect.block (s := S256x1x512) S4x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x64x512.size a ≤ S256x64x512.size a
  hwx0_7 : ∀ i : grid0.Coords, EltTy.bits .f32 = 32 ∨ (Rect.block (s := S256x64x512) S4x64x512.size (cc0_transform_7 i) (hinb0_7 i)).WholeWords (EltTy.packing .f32)

variable [Facts₀]

def dot_S4x64x512_S4x512x512_S4x64x512_2_1_1_2_0_0 : DotDims S4x64x512 S4x512x512 S4x64x512 where
  lhsContracting := [2]
  rhsContracting := [1]
  lhsNonContracting := [1]
  rhsNonContracting := [2]
  lhsBatch := [0]
  rhsBatch := [0]
  wf := dot_S4x64x512_S4x512x512_S4x64x512_2_1_1_2_0_0_wf

abbrev win0_0 : Pipeline.Window sig grid0 :=
  Pipeline.Window.ofSpec (Memref.whole main_arg0) S4x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4x64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x64x512 : Shape := ⟨3, ![256, 64, 512]⟩
abbrev S512x512 : Shape := ⟨2, ![512, 512]⟩
abbrev S1x512 : Shape := ⟨2, ![1, 512]⟩
abbrev S256x512x512 : Shape := ⟨3, ![256, 512, 512]⟩
abbrev S256x1x512 : Shape := ⟨3, ![256, 1, 512]⟩
abbrev S1x512x512 : Shape := ⟨3, ![1, 512, 512]⟩
abbrev S1x1x512 : Shape := ⟨3, ![1, 1, 512]⟩

abbrev nBuf : Space → Nat
  | .hbm => 22
  | .vmem => 0
  | .smem => 0
  | _ => 0

abbrev bufTy : (tb : Table) → Fin (tcTables nBuf tb) → BufTy
  | .hbm, ⟨0, _⟩ => ⟨S256x64x512, .f32⟩
  | .hbm, ⟨1, _⟩ => ⟨S512x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S256x512x512, .f32⟩
  | .hbm, ⟨6, _⟩ => ⟨S256x1x512, .f32⟩
  | .hbm, ⟨7, _⟩ => ⟨S1x512x512, .f32⟩
  | .hbm, ⟨8, _⟩ => ⟨S256x512x512, .f32⟩
  | .hbm, ⟨9, _⟩ => ⟨S256x512x512, .f32⟩
  | .hbm, ⟨10, _⟩ => ⟨S1x512x512, .f32⟩
  | .hbm, ⟨11, _⟩ => ⟨S256x512x512, .f32⟩
  | .hbm, ⟨12, _⟩ => ⟨S256x512x512, .f32⟩
  | .hbm, ⟨13, _⟩ => ⟨S256x64x512, .f32⟩
  | .hbm, ⟨14, _⟩ => ⟨S1x1x512, .f32⟩
  | .hbm, ⟨15, _⟩ => ⟨S256x64x512, .f32⟩
  | .hbm, ⟨16, _⟩ => ⟨S256x64x512, .f32⟩
  | .hbm, ⟨17, _⟩ => ⟨S1x1x512, .f32⟩
  | .hbm, ⟨18, _⟩ => ⟨S256x1x512, .f32⟩
  | .hbm, ⟨19, _⟩ => ⟨S256x1x512, .f32⟩
  | .hbm, ⟨20, _⟩ => ⟨S256x64x512, .f32⟩
  | .hbm, ⟨21, _⟩ => ⟨S256x64x512, .f32⟩
  | _, _ => ⟨S256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  bcast_S1x512x512_S256x512x512_0_1_2 : S1x512x512.BroadcastsInDim S256x512x512 (![0, 1, 2] : Fin 3 → Fin S256x512x512.rank)
  bcast_S1x512_S1x1x512_1_2 : S1x512.BroadcastsInDim S1x1x512 (![1, 2] : Fin 2 → Fin S1x1x512.rank)
  bcast_S1x1x512_S256x64x512_0_1_2 : S1x1x512.BroadcastsInDim S256x64x512 (![0, 1, 2] : Fin 3 → Fin S256x64x512.rank)
  bcast_S1x1x512_S256x1x512_0_1_2 : S1x1x512.BroadcastsInDim S256x1x512 (![0, 1, 2] : Fin 3 → Fin S256x1x512.rank)
  bcast_S256x1x512_S256x64x512_0_1_2 : S256x1x512.BroadcastsInDim S256x64x512 (![0, 1, 2] : Fin 3 → Fin S256x64x512.rank)
  dot_S256x64x512_S256x512x512_S256x64x512_2_1_1_2_0_0_wf : DotDims.WF S256x64x512 S256x512x512 S256x64x512 [2] [1] [1] [2] [0] [0]

variable [Facts₀]

def dot_S256x64x512_S256x512x512_S256x64x512_2_1_1_2_0_0 : DotDims S256x64x512 S256x512x512 S256x64x512 where
  lhsContracting := [2]
  rhsContracting := [1]
  lhsNonContracting := [1]
  rhsNonContracting := [2]
  lhsBatch := [0]
  rhsBatch := [0]
  wf := dot_S256x64x512_S256x512x512_S256x64x512_2_1_1_2_0_0_wf

class Facts : Prop extends Facts₀ where

variable [Facts]
-- ==== Proof.NoisyLayer.lean ====
/-
  The per-sample noisy linear layer, entry by entry, on the extended reals.

  For a batch index b, a row n and an output column o,

      y(b, n, o) = (∑ i, x(b, n, i) · (ε_w(b, i, o) · σ_w(i, o) + w(i, o))) + (ε_b(b, 0, o) · σ_b(0, o) + β(0, o)):

  every sample b has its own weight matrix, the shared weights w perturbed by that sample's noise ε_w scaled entry by
  entry by σ_w, and its own bias row, the shared bias β perturbed by ε_b scaled by σ_b. The sum runs over the 512 input
  features. Nothing here needs the entries to be finite: the only laws used later are commutativity and associativity
  of addition, which hold on the extended reals as they stand.
-/
import Idealize.ShloMosaic.PureOps.Ideal
import Idealize.ShloMosaic.Lib.ValueIdx

noncomputable section

namespace NoisyLayer

open Idealize.ShloMosaic Idealize.ShloMosaic.ValueIdx

/-- The activations, [256, 64, 512]: batch, row, input feature. Also the result's shape: batch, row, output column. -/
abbrev Acts : Shape := ⟨3, ![256, 64, 512]⟩
/-- A weight matrix shared by the batch, [512, 512]: input feature, output column. -/
abbrev Weights : Shape := ⟨2, ![512, 512]⟩
/-- A bias row shared by the batch, [1, 512]. -/
abbrev BiasRow : Shape := ⟨2, ![1, 512]⟩
/-- The weight noise, one matrix per sample, [256, 512, 512]. -/
abbrev WeightNoise : Shape := ⟨3, ![256, 512, 512]⟩
/-- The bias noise, one row per sample, [256, 1, 512]. -/
abbrev BiasNoise : Shape := ⟨3, ![256, 1, 512]⟩

/-- Sample `b`'s noisy weight at (input feature `k`, output column `o`): ε_w(b,k,o) · σ_w(k,o) + w(k,o). -/
def noisyWeight (w sw : Weights.Idx → EReal) (we : WeightNoise.Idx → EReal) (b : Fin 256) (k o : Fin 512) : EReal :=
  we (ix3 b k o) * sw (ix2 k o) + w (ix2 k o)

/-- Sample `b`'s noisy bias at output column `o`: ε_b(b,0,o) · σ_b(0,o) + β(0,o). -/
def noisyBias (β sb : BiasRow.Idx → EReal) (be : BiasNoise.Idx → EReal) (b : Fin 256) (o : Fin 512) : EReal :=
  be (ix3 b (0 : Fin 1) o) * sb (ix2 (0 : Fin 1) o) + β (ix2 (0 : Fin 1) o)

/-- The layer's result at batch `b`, row `n`, column `o`: row n of sample b's activations against sample b's noisy
    weights, plus sample b's noisy bias. -/
def entry (x : Acts.Idx → EReal) (w : Weights.Idx → EReal) (β : BiasRow.Idx → EReal) (sw : Weights.Idx → EReal)
    (sb : BiasRow.Idx → EReal) (we : WeightNoise.Idx → EReal) (be : BiasNoise.Idx → EReal)
    (b : Fin 256) (n : Fin 64) (o : Fin 512) : EReal :=
  (∑ k : Fin 512, x (ix3 b n k) * noisyWeight w sw we b k o) + noisyBias β sb be b o

/-- The whole result array: `entry` at each index's three coordinates. The arguments come in the order the two
    programs take them: activations, weights, bias, weight scales, bias scales, weight noise, bias noise. -/
def layer (x : Acts.Idx → EReal) (w : Weights.Idx → EReal) (β : BiasRow.Idx → EReal) (sw : Weights.Idx → EReal)
    (sb : BiasRow.Idx → EReal) (we : WeightNoise.Idx → EReal) (be : BiasNoise.Idx → EReal) : Acts.Idx → EReal :=
  fun i => entry x w β sw sb we be (i 0) (i 1) (i 2)

/-- The other arrangement of the same entry: the shared weight FIRST in each noisy weight, and the two bias terms
    added to the product one after the other instead of as one row, (S + β) + ε_b·σ_b. Equal to `entry` by
    commutativity of the inner sum and associativity and commutativity of the outer one. -/
theorem entry_eq_sum_bias_noise (x : Acts.Idx → EReal) (w : Weights.Idx → EReal) (β : BiasRow.Idx → EReal)
    (sw : Weights.Idx → EReal) (sb : BiasRow.Idx → EReal) (we : WeightNoise.Idx → EReal) (be : BiasNoise.Idx → EReal)
    (b : Fin 256) (n : Fin 64) (o : Fin 512) :
    ((∑ k : Fin 512, x (ix3 b n k) * (w (ix2 k o) + we (ix3 b k o) * sw (ix2 k o))) + β (ix2 (0 : Fin 1) o))
        + be (ix3 b (0 : Fin 1) o) * sb (ix2 (0 : Fin 1) o)
      = entry x w β sw sb we be b n o := by
  unfold entry noisyWeight noisyBias
  rw [add_assoc, add_comm (β _) (be _ * sb _)]
  refine congrArg (· + (be (ix3 b (0 : Fin 1) o) * sb (ix2 (0 : Fin 1) o) + β (ix2 (0 : Fin 1) o))) ?_
  exact Finset.sum_congr rfl fun k _ => by rw [add_comm (w _)]

end NoisyLayer

end
-- ==== Proof.ReferenceLayer.lean ====
/-
  The reference computes the noisy linear layer.

  Its host program forms each sample's noisy weights as w + ε_w · σ_w (the shared matrices laid across the batch),
  contracts the activations against them sample by sample over the input features, then adds the bias row laid over
  batch and rows, and last the bias noise times its scales laid over the rows: (S + β) + ε_b · σ_b. Read at an index
  (b, n, o) every laid-out operand is read at the coordinates it depends on — the shared matrices at (k, o), the rows at
  (0, o), the per-sample row at (b, 0, o) — and what is left is the other arrangement of `NoisyLayer.entry`.
-/
import proofs.«162237_j66314295050512_1_alg».proof.Proof.Gen.ReferenceIdeal.Read
import proofs.«162237_j66314295050512_1_alg».proof.Proof.NoisyLayer

noncomputable section

namespace Cert.ReferenceIdeal.Layer

open Cert.ReferenceIdeal Cert.ReferenceIdeal.Gen Idealize.ShloMosaic Idealize.ShloMosaic.TcCoe Idealize.SL.Sem
open Idealize.ShloMosaic.ValueIdx
open Cert.ReferenceIdeal.Read

/-- The reference's last stage, as a function of its seven arguments, is the layer. -/
theorem stage_eq_layer (x0 : (⟨S256x64x512, .f32⟩ : BufTy).Contents (Elt Ideal)) (x1 : (⟨S512x512, .f32⟩ : BufTy).Contents (Elt Ideal))
    (x2 : (⟨S1x512, .f32⟩ : BufTy).Contents (Elt Ideal)) (x3 : (⟨S512x512, .f32⟩ : BufTy).Contents (Elt Ideal))
    (x4 : (⟨S1x512, .f32⟩ : BufTy).Contents (Elt Ideal)) (x5 : (⟨S256x512x512, .f32⟩ : BufTy).Contents (Elt Ideal))
    (x6 : (⟨S256x1x512, .f32⟩ : BufTy).Contents (Elt Ideal)) :
    val_main_v14 (F := Ideal) x0 x1 x2 x3 x4 x5 x6 = NoisyLayer.layer x0 x1 x2 x3 x4 x5 x6 := by
  funext i
  obtain ⟨b, n, o, rfl⟩ : ∃ (b : Fin 256) (n : Fin 64) (o : Fin 512), i = ix3 b n o := ⟨i 0, i 1, i 2, eq_ix3 i⟩
  -- where each operand of the contraction is read: activations at (b, n, k), noisy weights at (b, k, o)
  have el : ∀ k : Fin 512, lidx_main_v6 (ix3 b n o) k = ix3 b n k := fun k => funext fun a => Fin.ext (by
    match a with | ⟨0, _⟩ => rfl | ⟨1, _⟩ => rfl | ⟨2, _⟩ => rfl)
  have er : ∀ k : Fin 512, ridx_main_v6 (ix3 b n o) k = ix3 b k o := fun k => funext fun a => Fin.ext (by
    match a with | ⟨0, _⟩ => rfl | ⟨1, _⟩ => rfl | ⟨2, _⟩ => rfl)
  -- a shared matrix laid across the batch is read at (k, o)
  have ew : ∀ k : Fin 512, idx_main_v3 (idx_main_v4 (ix3 b k o)) = ix2 k o := fun k => funext fun a => Fin.ext (by
    match a with | ⟨0, _⟩ => rfl | ⟨1, _⟩ => rfl)
  have es : ∀ k : Fin 512, idx_main_v0 (idx_main_v1 (ix3 b k o)) = ix2 k o := fun k => funext fun a => Fin.ext (by
    match a with | ⟨0, _⟩ => rfl | ⟨1, _⟩ => rfl)
  -- a shared row laid over batch and rows is read at (0, o); the per-sample row at (b, 0, o)
  have eβ : idx_main_v7 (idx_main_v8 (ix3 b n o)) = ix2 (0 : Fin 1) o := funext fun a => Fin.ext (by
    match a with | ⟨0, _⟩ => rfl | ⟨1, _⟩ => rfl)
  have ee : idx_main_v13 (ix3 b n o) = ix3 b (0 : Fin 1) o := funext fun a => Fin.ext (by
    match a with | ⟨0, _⟩ => rfl | ⟨1, _⟩ => rfl | ⟨2, _⟩ => rfl)
  have eσ : idx_main_v10 (idx_main_v11 (ix3 b (0 : Fin 1) o)) = ix2 (0 : Fin 1) o := funext fun a => Fin.ext (by
    match a with | ⟨0, _⟩ => rfl | ⟨1, _⟩ => rfl)
  rw [val_main_v14_apply, val_main_v9_apply, val_main_v6_apply, val_main_v8_apply, val_main_v7_apply,
    val_main_v13_apply, val_main_v12_apply, val_main_v11_apply, val_main_v10_apply]
  simp only [val_main_v5_apply, val_main_v4_apply, val_main_v3_apply, val_main_v2_apply, val_main_v1_apply,
    val_main_v0_apply, Ideal.addf_def, Ideal.mulf_def, el, er, ew, es, eβ, ee, eσ]
  exact NoisyLayer.entry_eq_sum_bias_noise x0 x1 x2 x3 x4 x5 x6 b n o

end Cert.ReferenceIdeal.Layer

end
-- ==== Proof.LibBatchLayouts.lean ====
/-
  Two broadcasts of three-axis arrays, read at an index written by its coordinates.

  A batched computation lays a value that does not depend on the sample across the batch axis, [1, a, b] → [m, a, b], and
  a per-sample row across the rows of that sample's block, [m, 1, b] → [m, n, b]. Read at (p, i, j) the first is the one
  slab at (0, i, j); read at (p, q, j) the second is sample p's row at (p, 0, j). Both are instances of the general rule
  for a broadcast (a unit axis of the operand is read at 0, any other at the result's coordinate), stated for every size
  so that they apply whatever the extents are — an extent that happens to be 1 is covered too, its only coordinate being 0.
-/
import Idealize.ShloMosaic.Lib.Pipeline.Value
import Idealize.ShloMosaic.Lib.ValueIdx

namespace BatchLayouts

open Idealize.ShloMosaic Idealize.ShloMosaic.ValueIdx

variable {α : Type}

/-- A `[1, a, b]` array broadcast to `[m, a, b]` reads, at `(p, i, j)`, the operand's one slab at `(0, i, j)`: the same
    matrix for every sample `p`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[m, 1, b]` array broadcast to `[m, n, b]` reads, at `(p, q, j)`, sample `p`'s one row at `(p, 0, j)`: the same row
    for every row `q` of the sample's block. -/
theorem broadcastTo_m1b_mnb_apply {m n b : ℕ} (v : (⟨3, ![m, 1, b]⟩ : Shape).Idx → α)
    (h : (⟨3, ![m, 1, b]⟩ : Shape).Broadcasts ⟨3, ![m, n, b]⟩) (p : Fin m) (q : Fin n) (j : Fin b) :
    broadcastTo ⟨3, ![m, n, b]⟩ v h (ix3 p q j) = v (ix3 p (0 : Fin 1) j) := by
  refine broadcastTo_apply v h (ix3 p q j) (ix3 p (0 : Fin 1) j) fun ax => ?_
  match ax with
  | ⟨0, _⟩ =>
    show p.val = if m = 1 then 0 else p.val
    split
    · have := p.isLt; omega
    · rfl
  | ⟨1, _⟩ => rfl
  | ⟨2, _⟩ =>
    show j.val = if b = 1 then 0 else j.val
    split
    · have := j.isLt; omega
    · rfl

end BatchLayouts
-- ==== Proof.BodyEntry.lean ====
/-
  What the kernel body computes for one block of four samples, entry by entry.

  The body loads four samples' activations [4, 64, 512], weight noise [4, 512, 512] and bias noise [4, 1, 512], and the
  shared weights, weight scales, bias and bias scales. It lays the shared matrices across the four samples, forms the
  noisy weights ε_w · σ_w + w and the noisy bias rows ε_b · σ_b + β, multiplies each sample's activations by that sample's
  noisy weights (one batched product into a zero accumulator: batch axis against batch axis, the activations' feature
  axis against the weights' first axis), and adds each sample's bias row to every row of its product. The changes of float
  format before the product are the identity on extended reals. So at (p, n, o) — sample p of the block, row n, column o —
  the stored value is

      (∑ k, x(p, n, k) · (ε_w(p, k, o) · σ_w(k, o) + w(k, o))) + (ε_b(p, 0, o) · σ_b(0, o) + β(0, o)).
-/
import proofs.«162237_j66314295050512_1_alg».proof.Proof.Gen.KernelIdeal.Skeleton
import proofs.«162237_j66314295050512_1_alg».proof.Proof.LibBatchLayouts
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.SL.Sem
open Idealize.ShloMosaic.ValueIdx

/-! ## The batched product's operand indices

At output index (p, n, o) and contraction index k the product reads the left operand at (p, n, k) and the right at
(p, k, o): the batch coordinate is shared, the left keeps the row, the right keeps the column. -/

theorem lhs_batch (i : S4x64x512.Idx) (q : dot_S4x64x512_S4x512x512_S4x64x512_2_1_1_2_0_0.contr.Idx) :
    (dot_S4x64x512_S4x512x512_S4x64x512_2_1_1_2_0_0.lhsIdx i q 0).val = (i 0).val := by
  unfold DotDims.lhsIdx
  rw [dif_pos (show (0 : Fin S4x64x512.rank) ∈ dot_S4x64x512_S4x512x512_S4x64x512_2_1_1_2_0_0.lhsBatch by decide)]
  rfl

theorem lhs_row (i : S4x64x512.Idx) (q : dot_S4x64x512_S4x512x512_S4x64x512_2_1_1_2_0_0.contr.Idx) :
    (dot_S4x64x512_S4x512x512_S4x64x512_2_1_1_2_0_0.lhsIdx i q 1).val = (i 1).val := by
  unfold DotDims.lhsIdx
  rw [dif_neg (show ¬(1 : Fin S4x64x512.rank) ∈ dot_S4x64x512_S4x512x512_S4x64x512_2_1_1_2_0_0.lhsBatch by decide),
    dif_pos (show (1 : Fin S4x64x512.rank) ∈ dot_S4x64x512_S4x512x512_S4x64x512_2_1_1_2_0_0.lhsNonContracting by decide)]
  rfl

theorem lhs_feature (i : S4x64x512.Idx) (q : dot_S4x64x512_S4x512x512_S4x64x512_2_1_1_2_0_0.contr.Idx) :
    (dot_S4x64x512_S4x512x512_S4x64x512_2_1_1_2_0_0.lhsIdx i q 2).val = (q ⟨0, by decide⟩).val :=
  dot_S4x64x512_S4x512x512_S4x64x512_2_1_1_2_0_0.lhsIdx_val_of_single rfl i q

theorem rhs_batch (i : S4x64x512.Idx) (q : dot_S4x64x512_S4x512x512_S4x64x512_2_1_1_2_0_0.contr.Idx) :
    (dot_S4x64x512_S4x512x512_S4x64x512_2_1_1_2_0_0.rhsIdx i q 0).val = (i 0).val := by
  unfold DotDims.rhsIdx
  rw [dif_pos (show (0 : Fin S4x512x512.rank) ∈ dot_S4x64x512_S4x512x512_S4x64x512_2_1_1_2_0_0.rhsBatch by decide)]
  rfl

theorem rhs_feature (i : S4x64x512.Idx) (q : dot_S4x64x512_S4x512x512_S4x64x512_2_1_1_2_0_0.contr.Idx) :
    (dot_S4x64x512_S4x512x512_S4x64x512_2_1_1_2_0_0.rhsIdx i q 1).val = (q ⟨0, by decide⟩).val :=
  dot_S4x64x512_S4x512x512_S4x64x512_2_1_1_2_0_0.rhsIdx_val_of_single rfl i q

theorem rhs_column (i : S4x64x512.Idx) (q : dot_S4x64x512_S4x512x512_S4x64x512_2_1_1_2_0_0.contr.Idx) :
    (dot_S4x64x512_S4x512x512_S4x64x512_2_1_1_2_0_0.rhsIdx i q 2).val = (i 2).val := by
  unfold DotDims.rhsIdx
  rw [dif_neg (show ¬(2 : Fin S4x512x512.rank) ∈ dot_S4x64x512_S4x512x512_S4x64x512_2_1_1_2_0_0.rhsBatch by decide),
    dif_pos (show (2 : Fin S4x512x512.rank) ∈ dot_S4x64x512_S4x512x512_S4x64x512_2_1_1_2_0_0.rhsNonContracting by decide)]
  rfl

/-- The batched product into a zero accumulator, at (p, n, o): sample p's row n against sample p's column o, a plain
    sum over the 512 features. -/
theorem product_entry {φ₁ φ₂ : FTy} (l : FVec Ideal S4x64x512 φ₁) (r : FVec Ideal S4x512x512 φ₂) (p : Fin 4) (n : Fin 64) (o : Fin 512) :
    matmul dot_S4x64x512_S4x512x512_S4x64x512_2_1_1_2_0_0 none l r (constant (F := Ideal) S4x64x512 .f32 0x00000000#32) (ix3 p n o)
      = ∑ k : Fin 512, l (ix3 p n k) * r (ix3 p k o) := by
  refine (Ideal.matmul_constant_zero_apply dot_S4x64x512_S4x512x512_S4x64x512_2_1_1_2_0_0 none l r (ix3 p n o)).trans ?_
  rw [← Equiv.sum_comp (ValueIdx.contrEquiv1 dot_S4x64x512_S4x512x512_S4x64x512_2_1_1_2_0_0 512 rfl rfl).symm]
  refine Finset.sum_congr rfl fun k _ => ?_
  have hk := ValueIdx.contrEquiv1_symm_val dot_S4x64x512_S4x512x512_S4x64x512_2_1_1_2_0_0 512 rfl rfl k
  have el : dot_S4x64x512_S4x512x512_S4x64x512_2_1_1_2_0_0.lhsIdx (ix3 p n o) ((ValueIdx.contrEquiv1 dot_S4x64x512_S4x512x512_S4x64x512_2_1_1_2_0_0 512 rfl rfl).symm k) = ix3 p n k := funext fun a => Fin.ext (by
    match a with
    | ⟨0, _⟩ => exact lhs_batch _ _
    | ⟨1, _⟩ => exact lhs_row _ _
    | ⟨2, _⟩ => exact (lhs_feature _ _).trans hk)
  have er : dot_S4x64x512_S4x512x512_S4x64x512_2_1_1_2_0_0.rhsIdx (ix3 p n o) ((ValueIdx.contrEquiv1 dot_S4x64x512_S4x512x512_S4x64x512_2_1_1_2_0_0 512 rfl rfl).symm k) = ix3 p k o := funext fun a => Fin.ext (by
    match a with
    | ⟨0, _⟩ => exact rhs_batch _ _
    | ⟨1, _⟩ => exact (rhs_feature _ _).trans hk
    | ⟨2, _⟩ => exact rhs_column _ _)
  rw [el, er]

/-! ## The stored value at an entry -/

/-- A shared matrix cast to one slab and laid across the four samples is read, at (p, k, o), at (k, o). -/
theorem shared_matrix_across {α : Type} (v : S512x512.Idx → α) (p : Fin 4) (k o : Fin 512) :
    broadcastTo S4x512x512 (shapeCast S1x512x512 v shapeCasts_S512x512_S1x512x512) broadcasts_S1x512x512_S4x512x512 (ix3 p k o) = v (ix2 k o) :=
  (BatchLayouts.broadcastTo_1ab_mab_apply _ broadcasts_S1x512x512_S4x512x512 p k o).trans
    (shapeCast_ab_1ab_apply v shapeCasts_S512x512_S1x512x512 (0 : Fin 1) k o)

/-- A shared row cast to one slab and laid across the four samples is read, at (p, 0, o), at (0, o). -/
theorem shared_row_across {α : Type} (v : S1x512.Idx → α) (p : Fin 4) (o : Fin 512) :
    broadcastTo S4x1x512 (shapeCast S1x1x512 v shapeCasts_S1x512_S1x1x512) broadcasts_S1x1x512_S4x1x512 (ix3 p (0 : Fin 1) o) = v (ix2 (0 : Fin 1) o) :=
  (BatchLayouts.broadcastTo_1ab_mab_apply _ broadcasts_S1x1x512_S4x1x512 p (0 : Fin 1) o).trans
    (shapeCast_ab_1ab_apply v shapeCasts_S1x512_S1x1x512 (0 : Fin 1) (0 : Fin 1) o)

/-- The value the body stores, at sample `p` of the block, row `n`, column `o`, from its seven loads (weight noise, weight
    scales, weights, activations, bias noise, bias scales, bias — the order the body loads them in). -/
theorem payload_entry (v0 : Vec Ideal S4x512x512 .f32) (v1 v5 : Vec Ideal S512x512 .f32) (v9 : Vec Ideal S4x64x512 .f32)
    (v13 : Vec Ideal S4x1x512 .f32) (v14 v18 : Vec Ideal S1x512 .f32) (p : Fin 4) (n : Fin 64) (o : Fin 512) :
    k0_pay1 (F := Ideal) v0 v1 v5 v9 v13 v14 v18 (ix3 p n o)
      = (∑ k : Fin 512, v9 (ix3 p n k) * (v0 (ix3 p k o) * v1 (ix2 k o) + v5 (ix2 k o)))
        + (v13 (ix3 p (0 : Fin 1) o) * v14 (ix2 (0 : Fin 1) o) + v18 (ix2 (0 : Fin 1) o)) := by
  unfold k0_pay1
  show matmul dot_S4x64x512_S4x512x512_S4x64x512_2_1_1_2_0_0 none (truncf .bf16 v9 bitsLt_bf16_f32)
        (truncf .bf16 (addf (mulf v0 (broadcastTo S4x512x512 (shapeCast S1x512x512 v1 shapeCasts_S512x512_S1x512x512) broadcasts_S1x512x512_S4x512x512))
          (broadcastTo S4x512x512 (shapeCast S1x512x512 v5 shapeCasts_S512x512_S1x512x512) broadcasts_S1x512x512_S4x512x512)) bitsLt_bf16_f32)
        (constant (F := Ideal) S4x64x512 .f32 0x00000000#32) (ix3 p n o)
      + broadcastTo S4x64x512 (addf (mulf v13 (broadcastTo S4x1x512 (shapeCast S1x1x512 v14 shapeCasts_S1x512_S1x1x512) broadcasts_S1x1x512_S4x1x512))
          (broadcastTo S4x1x512 (shapeCast S1x1x512 v18 shapeCasts_S1x512_S1x1x512) broadcasts_S1x1x512_S4x1x512)) broadcasts_S4x1x512_S4x64x512 (ix3 p n o) = _
  rw [product_entry, BatchLayouts.broadcastTo_m1b_mnb_apply]
  refine congrArg₂ (· + ·) (Finset.sum_congr rfl fun k _ => ?_) ?_
  · show v9 (ix3 p n k) * (v0 (ix3 p k o) * broadcastTo S4x512x512 (shapeCast S1x512x512 v1 shapeCasts_S512x512_S1x512x512) broadcasts_S1x512x512_S4x512x512 (ix3 p k o)
        + broadcastTo S4x512x512 (shapeCast S1x512x512 v5 shapeCasts_S512x512_S1x512x512) broadcasts_S1x512x512_S4x512x512 (ix3 p k o)) = _
    rw [shared_matrix_across, shared_matrix_across]
  · show v13 (ix3 p (0 : Fin 1) o) * broadcastTo S4x1x512 (shapeCast S1x1x512 v14 shapeCasts_S1x512_S1x1x512) broadcasts_S1x1x512_S4x1x512 (ix3 p (0 : Fin 1) o)
        + broadcastTo S4x1x512 (shapeCast S1x1x512 v18 shapeCasts_S1x512_S1x1x512) broadcasts_S1x1x512_S4x1x512 (ix3 p (0 : Fin 1) o) = _
    rw [shared_row_across, shared_row_across]

end Cert.KernelIdeal.Body

end
-- ==== Proof.LayerBlocks.lean ====
/-
  From blocks to the array: the kernel's result is the noisy linear layer.

  The kernel runs over 64 grid points. Point t stages samples 4t … 4t+3 of the activations, the weight noise and the bias
  noise, and the four shared arrays whole, and writes back samples 4t … 4t+3 of the result. By the body's entry formula
  what it writes at (p, n, o) of its block is `NoisyLayer.entry` of the whole arrays at sample 4t + p, row n, column o:
  every per-sample block sits at batch offset 4t and at offset 0 on its other axes, and the shared arrays are their own
  single block. The 64 blocks of four samples tile the 256 samples, so every index of the result lies in the block of
  point (its sample) / 4, and the array after the run is the layer of the argument arrays.
-/
import proofs.«162237_j66314295050512_1_alg».proof.Proof.Gen.KernelIdeal.Value
import proofs.«162237_j66314295050512_1_alg».proof.Proof.BodyEntry
import proofs.«162237_j66314295050512_1_alg».proof.Proof.NoisyLayer

noncomputable section

namespace Cert.KernelIdeal.LayerBlocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl

/-- The body's entry formula over a block of four samples is the layer's entry of the whole arrays, once each block
    entry it reads is known to be the whole array's entry at sample `b`, row `n'`, column `o'`. -/
theorem entry_of_blocks (X0 : NoisyLayer.Acts.Idx → EReal) (X1 : NoisyLayer.Weights.Idx → EReal) (X2 : NoisyLayer.BiasRow.Idx → EReal)
    (X3 : NoisyLayer.Weights.Idx → EReal) (X4 : NoisyLayer.BiasRow.Idx → EReal) (X5 : NoisyLayer.WeightNoise.Idx → EReal)
    (X6 : NoisyLayer.BiasNoise.Idx → EReal)
    (x0 : S4x64x512.Idx → EReal) (x1 : S512x512.Idx → EReal) (x2 : S1x512.Idx → EReal) (x3 : S512x512.Idx → EReal)
    (x4 : S1x512.Idx → EReal) (x5 : S4x512x512.Idx → EReal) (x6 : S4x1x512.Idx → EReal)
    (b : Fin 256) (n' : Fin 64) (o' : Fin 512) (p : Fin 4) (n : Fin 64) (o : Fin 512)
    (h0 : ∀ k : Fin 512, x0 (ix3 p n k) = X0 (ix3 b n' k))
    (h1 : ∀ k : Fin 512, x1 (ix2 k o) = X1 (ix2 k o'))
    (h2 : x2 (ix2 (0 : Fin 1) o) = X2 (ix2 (0 : Fin 1) o'))
    (h3 : ∀ k : Fin 512, x3 (ix2 k o) = X3 (ix2 k o'))
    (h4 : x4 (ix2 (0 : Fin 1) o) = X4 (ix2 (0 : Fin 1) o'))
    (h5 : ∀ k : Fin 512, x5 (ix3 p k o) = X5 (ix3 b k o'))
    (h6 : x6 (ix3 p (0 : Fin 1) o) = X6 (ix3 b (0 : Fin 1) o')) :
    (∑ k : Fin 512, x0 (ix3 p n k) * (x5 (ix3 p k o) * x3 (ix2 k o) + x1 (ix2 k o)))
        + (x6 (ix3 p (0 : Fin 1) o) * x4 (ix2 (0 : Fin 1) o) + x2 (ix2 (0 : Fin 1) o))
      = NoisyLayer.entry X0 X1 X2 X3 X4 X5 X6 b n' o' := by
  unfold NoisyLayer.entry NoisyLayer.noisyWeight NoisyLayer.noisyBias
  rw [h2, h4, h6]
  exact congrArg (· + _) (Finset.sum_congr rfl fun k _ => by rw [h0 k, h1 k, h3 k, h5 k])

/-- Where each window's block sits at point `t`, decided over the 64 points: the per-sample windows (activations, weight
    noise, bias noise) share the result's batch block index and are at 0 on their other axes; the shared arrays are at 0. -/
theorem block_positions : ∀ t : Fin cfg0.N,
    win0_0.index t (0 : Fin 3) = win0_7.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = win0_7.index t (0 : Fin 3) ∧ win0_5.index t (1 : Fin 3) = 0 ∧ win0_5.index t (2 : Fin 3) = 0
    ∧ win0_6.index t (0 : Fin 3) = win0_7.index t (0 : Fin 3) ∧ win0_6.index t (1 : Fin 3) = 0 ∧ win0_6.index t (2 : Fin 3) = 0
    ∧ win0_7.index t (1 : Fin 3) = 0 ∧ win0_7.index t (2 : Fin 3) = 0 :=
  (by decide +kernel : ∀ t : Fin grid0.N, _)

/-- Every batch block of four samples is some point's. -/
theorem batch_block_onto : ∀ q : Fin 64, ∃ t : Fin cfg0.N, win0_7.index t = ![q.val, 0, 0] :=
  (by decide +kernel : ∀ q : Fin 64, ∃ t : Fin grid0.N, win0_7.index t = ![q.val, 0, 0])

/-- What point `t` writes back is block `t` of the layer of the arrays as the region finds them. -/
theorem point_writes_layer_block (c : Dev nD) (t : Fin cfg0.N) :
    (dats m 0 c).flushed 7 t = ((cfg0.win 7).blk t).view.read (Elt Ideal)
      (NoisyLayer.layer (V m c main_arg0) (V m c main_arg1) (V m c main_arg2) (V m c main_arg3) (V m c main_arg4)
        (V m c main_arg5) (V m c main_arg6)) := by
  show (cfg0.win 7).cut (grid0.coords t) ((dats m 0 c).after 7 t) = _
  rw [after0_7]
  unfold out0_7
  rw [View.canon_unit_zero origin3]
  simp only [View.ld_unit_zero (S := S4x512x512) origin3, View.ld_unit_zero (S := S512x512) origin2,
    View.ld_unit_zero (S := S4x64x512) origin3, View.ld_unit_zero (S := S4x1x512) origin3,
    View.ld_unit_zero (S := S1x512) origin2]
  obtain ⟨e00, e01, e02, e10, e11, e20, e21, e30, e31, e40, e41, e50, e51, e52, e60, e61, e62, e71, e72⟩ := block_positions t
  funext j
  obtain ⟨p, n, o, rfl⟩ : ∃ (p : Fin 4) (n : Fin 64) (o : Fin 512), j = ix3 p n o := ⟨j 0, j 1, j 2, eq_ix3 j⟩
  refine (Body.payload_entry (iblk m c 5 t) (iblk m c 3 t) (iblk m c 1 t) (iblk m c 0 t) (iblk m c 6 t) (iblk m c 4 t)
    (iblk m c 2 t) p n o).trans ?_
  show _ = NoisyLayer.entry (V m c main_arg0) (V m c main_arg1) (V m c main_arg2) (V m c main_arg3) (V m c main_arg4)
    (V m c main_arg5) (V m c main_arg6) ((((cfg0.win 7).blk t).view.emb (ix3 p n o)) 0)
    ((((cfg0.win 7).blk t).view.emb (ix3 p n o)) 1) ((((cfg0.win 7).blk t).view.emb (ix3 p n o)) 2)
  refine entry_of_blocks (V m c main_arg0) (V m c main_arg1) (V m c main_arg2) (V m c main_arg3) (V m c main_arg4)
    (V m c main_arg5) (V m c main_arg6) (iblk m c 0 t) (iblk m c 1 t) (iblk m c 2 t) (iblk m c 3 t) (iblk m c 4 t)
    (iblk m c 5 t) (iblk m c 6 t) _ _ _ p n o ?_ ?_ ?_ ?_ ?_ ?_ ?_
  · -- activations: sample 4t + p, row n, feature k
    intro k
    refine congrArg (V m c main_arg0) (funext fun a => Fin.ext ?_)
    match a with
    | ⟨0, _⟩ => show win0_0.index t (0 : Fin 3) * 4 + 1 * p.val = win0_7.index t (0 : Fin 3) * 4 + 1 * p.val; omega
    | ⟨1, _⟩ => show win0_0.index t (1 : Fin 3) * 64 + 1 * n.val = win0_7.index t (1 : Fin 3) * 64 + 1 * n.val; omega
    | ⟨2, _⟩ => show win0_0.index t (2 : Fin 3) * 512 + 1 * k.val = k.val; omega
  · -- weights: feature k, column o
    intro k
    refine congrArg (V m c main_arg1) (funext fun a => Fin.ext ?_)
    match a with
    | ⟨0, _⟩ => show win0_1.index t (0 : Fin 2) * 512 + 1 * k.val = k.val; omega
    | ⟨1, _⟩ => show win0_1.index t (1 : Fin 2) * 512 + 1 * o.val = win0_7.index t (2 : Fin 3) * 512 + 1 * o.val; omega
  · -- bias: the one row, column o
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 512 + 1 * o.val = win0_7.index t (2 : Fin 3) * 512 + 1 * o.val; omega
  · -- weight scales: feature k, column o
    intro k
    refine congrArg (V m c main_arg3) (funext fun a => Fin.ext ?_)
    match a with
    | ⟨0, _⟩ => show win0_3.index t (0 : Fin 2) * 512 + 1 * k.val = k.val; omega
    | ⟨1, _⟩ => show win0_3.index t (1 : Fin 2) * 512 + 1 * o.val = win0_7.index t (2 : Fin 3) * 512 + 1 * o.val; omega
  · -- bias scales: the one row, column o
    refine congrArg (V m c main_arg4) (funext fun a => Fin.ext ?_)
    match a with
    | ⟨0, _⟩ => show win0_4.index t (0 : Fin 2) * 1 + 1 * 0 = 0; omega
    | ⟨1, _⟩ => show win0_4.index t (1 : Fin 2) * 512 + 1 * o.val = win0_7.index t (2 : Fin 3) * 512 + 1 * o.val; omega
  · -- weight noise: sample 4t + p, feature k, column o
    intro k
    refine congrArg (V m c main_arg5) (funext fun a => Fin.ext ?_)
    match a with
    | ⟨0, _⟩ => show win0_5.index t (0 : Fin 3) * 4 + 1 * p.val = win0_7.index t (0 : Fin 3) * 4 + 1 * p.val; omega
    | ⟨1, _⟩ => show win0_5.index t (1 : Fin 3) * 512 + 1 * k.val = k.val; omega
    | ⟨2, _⟩ => show win0_5.index t (2 : Fin 3) * 512 + 1 * o.val = win0_7.index t (2 : Fin 3) * 512 + 1 * o.val; omega
  · -- bias noise: sample 4t + p, the one row, column o
    refine congrArg (V m c main_arg6) (funext fun a => Fin.ext ?_)
    match a with
    | ⟨0, _⟩ => show win0_6.index t (0 : Fin 3) * 4 + 1 * p.val = win0_7.index t (0 : Fin 3) * 4 + 1 * p.val; omega
    | ⟨1, _⟩ => show win0_6.index t (1 : Fin 3) * 1 + 1 * 0 = 0; omega
    | ⟨2, _⟩ => show win0_6.index t (2 : Fin 3) * 512 + 1 * o.val = win0_7.index t (2 : Fin 3) * 512 + 1 * o.val; omega

/-- An index of the result is in point `t`'s block iff each coordinate is in the block's range on its axis. -/
theorem mem_block (t : Fin cfg0.N) (i : S256x64x512.Idx) :
    i ∈ ((cfg0.win 7).blk t).view.set ↔ ∀ a : Fin 3, win0_7.index t a * S4x64x512.size a ≤ (i a).val
      ∧ (i a).val < win0_7.index t a * S4x64x512.size a + S4x64x512.size a := by
  show i ∈ ((View.whole main_v0).slice (win0_7.rect t)).set ↔ _
  rw [View.set_slice_whole, Rect.mem_set_unit]
  exact Iff.rfl

/-- The blocks cover the result: index (b, n, o) lies in the block of the point whose batch block is b / 4. -/
theorem blocks_cover (i : S256x64x512.Idx) :
    ∃ t : Fin cfg0.N, (cfg0.win 7).flush t = true ∧ i ∈ ((cfg0.win 7).blk t).view.set := by
  have hi0 : (i 0).val < 256 := (i 0).isLt
  have hi1 : (i 1).val < 64 := (i 1).isLt
  have hi2 : (i 2).val < 512 := (i 2).isLt
  obtain ⟨t, ht⟩ := batch_block_onto ⟨(i 0).val / 4, by omega⟩
  have q0 : win0_7.index t (0 : Fin 3) = (i 0).val / 4 := congrFun ht 0
  have q1 : win0_7.index t (1 : Fin 3) = 0 := congrFun ht 1
  have q2 : win0_7.index t (2 : Fin 3) = 0 := congrFun ht 2
  refine ⟨t, flush0_7 t, ?_⟩
  rw [mem_block]
  intro a
  match a with
  | ⟨0, _⟩ => show win0_7.index t (0 : Fin 3) * 4 ≤ (i 0).val ∧ (i 0).val < win0_7.index t (0 : Fin 3) * 4 + 4; omega
  | ⟨1, _⟩ => show win0_7.index t (1 : Fin 3) * 64 ≤ (i 1).val ∧ (i 1).val < win0_7.index t (1 : Fin 3) * 64 + 64; omega
  | ⟨2, _⟩ => show win0_7.index t (2 : Fin 3) * 512 ≤ (i 2).val ∧ (i 2).val < win0_7.index t (2 : Fin 3) * 512 + 512; omega

/-- The result array after the run is the layer of the argument arrays. -/
theorem array_eq_layer (c : Dev nD) :
    (dats m 0 c).arrAt 7 cfg0.N = NoisyLayer.layer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
  (dats m 0 c).arrAt_eq_of_cover 7 _ (fun t _ => point_writes_layer_block m c t) blocks_cover

/-- The kernel's run: every weakly fair execution terminates with the result array at the layer of the argument arrays,
    the arguments unchanged. -/
theorem run : θ_run defs (onTc (τ := τ) (main (F := Ideal))) ⟨m, fun _ => 0, ρ⟩ fun r => ∀ c : Dev nD,
      r.2.mem ((c : Thread nD τ).loc main_v0) = NoisyLayer.layer (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (array_eq_layer m c), (h c).2⟩) (Value.run_blocks m ρ)

end Cert.KernelIdeal.LayerBlocks

end
-- ==== Proof.lean ====
/-
  A per-sample noisy linear layer: a blocked kernel and its whole-array reference, equal on the extended reals.

  Both programs take activations x [256, 64, 512], shared weights w and weight scales σ_w [512, 512], a shared bias β and
  bias scales σ_b [1, 512], and per-sample noise ε_w [256, 512, 512] and ε_b [256, 1, 512], and return, at sample b, row n,
  column o,

      y(b, n, o) = (∑ k, x(b, n, k) · (ε_w(b, k, o) · σ_w(k, o) + w(k, o))) + (ε_b(b, 0, o) · σ_b(0, o) + β(0, o)).

  The kernel works on four samples per grid point: it forms the noisy weights as ε_w · σ_w + w, multiplies with one batched
  product into a zero accumulator (its operands narrowed to bf16 first, which changes nothing on extended reals), and adds
  the noisy bias row ε_b · σ_b + β. The reference forms w + ε_w · σ_w, contracts over the whole batch at once, and adds β and
  then ε_b · σ_b. The two differ only in the order of the two terms of each noisy weight and in how the three outer terms
  are grouped: addition of extended reals is commutative and associative whatever the entries are, so the equality never
  uses that the inputs are finite.

  The modules: `NoisyLayer` states y and the two arrangements' equality; `ReferenceLayer` reads the reference's last
  stage index by index and finds y; `BodyEntry` reads what the kernel body stores at an entry of its block (with
  `LibBatchLayouts`, two broadcasts of three-axis arrays read at an index); `LayerBlocks` shows point t writes samples
  4t … 4t+3 of y, that the 64 blocks cover the result, and so that the kernel's result array is y. The kernel's frames and
  the reference's run are the generated ones. The idealized kernel is the printed kernel's own text read on extended reals
  (no rewrite was applied), so there is nothing to preserve beyond `True`.
-/
import proofs.«162237_j66314295050512_1_alg».proof.Defs
import proofs.«162237_j66314295050512_1_alg».proof.Proof.Gen.Kernel
import proofs.«162237_j66314295050512_1_alg».proof.Proof.Gen.Kernel.Skeleton
import proofs.«162237_j66314295050512_1_alg».proof.Proof.Gen.Kernel.Launch
import proofs.«162237_j66314295050512_1_alg».proof.Proof.Gen.Kernel.Points
import proofs.«162237_j66314295050512_1_alg».proof.Proof.Gen.Kernel.Frame
import proofs.«162237_j66314295050512_1_alg».proof.Proof.Gen.KernelIdeal
import proofs.«162237_j66314295050512_1_alg».proof.Proof.Gen.KernelIdeal.Skeleton
import proofs.«162237_j66314295050512_1_alg».proof.Proof.Gen.KernelIdeal.Launch
import proofs.«162237_j66314295050512_1_alg».proof.Proof.Gen.KernelIdeal.Points
import proofs.«162237_j66314295050512_1_alg».proof.Proof.Gen.KernelIdeal.Frame
import proofs.«162237_j66314295050512_1_alg».proof.Proof.Gen.ReferenceIdeal
import proofs.«162237_j66314295050512_1_alg».proof.Proof.Gen.Pre_finite_inputs
import proofs.«162237_j66314295050512_1_alg».proof.Proof.Gen.KernelIdeal.Value
import proofs.«162237_j66314295050512_1_alg».proof.Proof.Gen.ReferenceIdeal.Run
import proofs.«162237_j66314295050512_1_alg».proof.Proof.Gen.ReferenceIdeal.Read
import proofs.«162237_j66314295050512_1_alg».proof.Proof.ReferenceLayer
import proofs.«162237_j66314295050512_1_alg».proof.Proof.LayerBlocks
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does the kernel read on extended reals. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the seven arguments, the kernel's result array ends at the layer of its arguments
    (`LayerBlocks.run`) and the reference's at its last stage of its own (the generated run), which is the layer too
    (`Layer.stage_eq_layer`): one array. -/
theorem algebraic : Cert.algebraic_KernelIdeal_ReferenceIdeal := by
  intro m ρ m' ρ' _ hagree
  refine ⟨_, Cert.KernelIdeal.LayerBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Layer.stage_eq_layer,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
